-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S512 .f32) (main_arg15 : FVec F S512x512 .f32) (main_arg16 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg15
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg11
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg12
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg13
  let main_cst_18 : FVec F S_ .f32 := constant S_ .f32 0x7F800000#32
  let main_v50 : FVec F S512x512 .f32 := broadcastInDim S512x512 ![] bcast_S_S512x512 main_cst_18
  fn_part3 (F := F) main_arg14 main_arg15 main_arg16 main_v48 main_v49 main_v50

def fn_part1 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg9
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S50000x512 .f32) (main_arg1 : FVec F S50000x512 .f32) (main_arg2 : IVec S2x150000 32) (main_arg3 : IVec S2x150000 32) (main_arg4 : IVec S2x150000 32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x512 : Shape := ⟨2, ![1, 512]⟩
abbrev S1000x512 : Shape := ⟨2, ![1000, 512]⟩
abbrev S2000x512 : Shape := ⟨2, ![2000, 512]⟩

abbrev nBuf : Space → Nat
  | .hbm => 85
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x150000, .i32⟩
  | .hbm, ⟨3, _⟩ => ⟨S2x150000, .i32⟩
  | .hbm, ⟨4, _⟩ => ⟨S2x150000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S1x150000, .i32⟩
  | .hbm, ⟨18, _⟩ => ⟨S150000, .i32⟩
  | .hbm, ⟨19, _⟩ => ⟨S_, .i32⟩
  | .hbm, ⟨20, _⟩ => ⟨S150000, .i32⟩
  | .hbm, ⟨21, _⟩ => ⟨S150000, .i1⟩
  | .hbm, ⟨22, _⟩ => ⟨S_, .i32⟩
  | .hbm, ⟨23, _⟩ => ⟨S150000, .i32⟩
  | .hbm, ⟨24, _⟩ => ⟨S150000, .i32⟩
  | .hbm, ⟨25, _⟩ => ⟨S150000, .i32⟩
  | .hbm, ⟨26, _⟩ => ⟨S150000x1, .i32⟩
  | .hbm, ⟨27, _⟩ => ⟨S150000x512, .f32⟩
  | .hbm, ⟨28, _⟩ => ⟨S1x150000, .i32⟩
  | .hbm, ⟨29, _⟩ => ⟨S150000, .i32⟩
  | .hbm, ⟨30, _⟩ => ⟨S_, .f32⟩
  | .hbm, ⟨31, _⟩ => ⟨S50000x512, .f32⟩
  | .hbm, ⟨32, _⟩ => ⟨S150000x1, .i32⟩
  | .hbm, ⟨33, _⟩ => ⟨S50000x512, .f32⟩
  | .hbm, ⟨34, _⟩ => ⟨S50000x512, .f32⟩
  | .hbm, ⟨35, _⟩ => ⟨S1x150000, .i32⟩
  | .hbm, ⟨36, _⟩ => ⟨S150000, .i32⟩
  | .hbm, ⟨37, _⟩ => ⟨S_, .i32⟩
  | .hbm, ⟨38, _⟩ => ⟨S150000, .i32⟩
  | .hbm, ⟨39, _⟩ => ⟨S150000, .i1⟩
  | .hbm, ⟨40, _⟩ => ⟨S_, .i32⟩
  | .hbm, ⟨41, _⟩ => ⟨S150000, .i32⟩
  | .hbm, ⟨42, _⟩ => ⟨S150000, .i32⟩
  | .hbm, ⟨43, _⟩ => ⟨S150000, .i32⟩
  | .hbm, ⟨44, _⟩ => ⟨S150000x1, .i32⟩
  | .hbm, ⟨45, _⟩ => ⟨S150000x512, .f32⟩
  | .hbm, ⟨46, _⟩ => ⟨S1x150000, .i32⟩
  | .hbm, ⟨47, _⟩ => ⟨S150000, .i32⟩
  | .hbm, ⟨48, _⟩ => ⟨S_, .f32⟩
  | .hbm, ⟨49, _⟩ => ⟨S50000x512, .f32⟩
  | .hbm, ⟨50, _⟩ => ⟨S150000x1, .i32⟩
  | .hbm, ⟨51, _⟩ => ⟨S50000x512, .f32⟩
  | .hbm, ⟨52, _⟩ => ⟨S50000x512, .f32⟩
  | .hbm, ⟨53, _⟩ => ⟨S1x150000, .i32⟩
  | .hbm, ⟨54, _⟩ => ⟨S150000, .i32⟩
  | .hbm, ⟨55, _⟩ => ⟨S_, .i32⟩
  | .hbm, ⟨56, _⟩ => ⟨S150000, .i32⟩
  | .hbm, ⟨57, _⟩ => ⟨S150000, .i1⟩
  | .hbm, ⟨58, _⟩ => ⟨S_, .i32⟩
  | .hbm, ⟨59, _⟩ => ⟨S150000, .i32⟩
  | .hbm, ⟨60, _⟩ => ⟨S150000, .i32⟩
  | .hbm, ⟨61, _⟩ => ⟨S150000, .i32⟩
  | .hbm, ⟨62, _⟩ => ⟨S150000x1, .i32⟩
  | .hbm, ⟨63, _⟩ => ⟨S150000x512, .f32⟩
  | .hbm, ⟨64, _⟩ => ⟨S1x150000, .i32⟩
  | .hbm, ⟨65, _⟩ => ⟨S150000, .i32⟩
  | .hbm, ⟨66, _⟩ => ⟨S_, .f32⟩
  | .hbm, ⟨67, _⟩ => ⟨S50000x512, .f32⟩
  | .hbm, ⟨68, _⟩ => ⟨S150000x1, .i32⟩
  | .hbm, ⟨69, _⟩ => ⟨S50000x512, .f32⟩
  | .hbm, ⟨70, _⟩ => ⟨S50000x512, .f32⟩
  | .hbm, ⟨71, _⟩ => ⟨S512x512, .bf16⟩
  | .hbm, ⟨72, _⟩ => ⟨S1x512, .f32⟩
  | .hbm, ⟨73, _⟩ => ⟨S512x512, .bf16⟩
  | .hbm, ⟨74, _⟩ => ⟨S1x512, .f32⟩
  | .hbm, ⟨75, _⟩ => ⟨S512x512, .bf16⟩
  | .hbm, ⟨76, _⟩ => ⟨S1x512, .f32⟩
  | .hbm, ⟨77, _⟩ => ⟨S512x512, .bf16⟩
  | .hbm, ⟨78, _⟩ => ⟨S1x512, .f32⟩
  | .hbm, ⟨79, _⟩ => ⟨S50000x512, .f32⟩
  | .hbm, ⟨80, _⟩ => ⟨S512x512, .bf16⟩
  | .hbm, ⟨81, _⟩ => ⟨S1x512, .f32⟩
  | .hbm, ⟨82, _⟩ => ⟨S512x512, .bf16⟩
  | .hbm, ⟨83, _⟩ => ⟨S1x512, .f32⟩
  | .hbm, ⟨84, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S1000x512, .f32⟩
  | .local _ .vmem, ⟨7, _⟩ => ⟨S1000x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1000x512, .f32⟩
  | .local _ .vmem, ⟨13, _⟩ => ⟨S1000x512, .f32⟩
  | .local _ .vmem, ⟨14, _⟩ => ⟨S2000x512, .f32⟩
  | .local _ .vmem, ⟨15, _⟩ => ⟨S2000x512, .f32⟩
  | .local _ .vmem, ⟨16, _⟩ => ⟨S512x512, .bf16⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S2000x512, .f32⟩
  | .local _ .vmem, ⟨21, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  bcast_S_S50000x512 : S_.BroadcastsInDim S50000x512 (![] : Fin 0 → Fin S50000x512.rank)
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S1x512_S2000x512 : S1x512.Broadcasts S2000x512
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S1000x512_S512x512_S1000x512_1_0_0_1_n_n_wf : DotDims.WF S1000x512 S512x512 S1000x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x512.size a ≤ S50000x512.size a
  hwx0_10 : ∀ i : grid0.Coords, EltTy.bits .f32 = 32 ∨ (Rect.block (s := S50000x512) S1000x512.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v14) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1000x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v53) S1000x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v44) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x150000 : Shape := ⟨2, ![2, 150000]⟩
abbrev S512x512 : Shape := ⟨2, ![512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x150000, .i32⟩
  | .hbm, ⟨3, _⟩ => ⟨S2x150000, .i32⟩
  | .hbm, ⟨4, _⟩ => ⟨S2x150000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S1x150000, .i32⟩
  | .hbm, ⟨18, _⟩ => ⟨S150000, .i32⟩
  | .hbm, ⟨19, _⟩ => ⟨S_, .i32⟩
  | .hbm, ⟨20, _⟩ => ⟨S150000, .i32⟩
  | .hbm, ⟨21, _⟩ => ⟨S150000, .i1⟩
  | .hbm, ⟨22, _⟩ => ⟨S_, .i32⟩
  | .hbm, ⟨23, _⟩ => ⟨S150000, .i32⟩
  | .hbm, ⟨24, _⟩ => ⟨S150000, .i32⟩
  | .hbm, ⟨25, _⟩ => ⟨S150000, .i32⟩
  | .hbm, ⟨26, _⟩ => ⟨S150000x1, .i32⟩
  | .hbm, ⟨27, _⟩ => ⟨S150000x512, .f32⟩
  | .hbm, ⟨28, _⟩ => ⟨S1x150000, .i32⟩
  | .hbm, ⟨29, _⟩ => ⟨S150000, .i32⟩
  | .hbm, ⟨30, _⟩ => ⟨S_, .f32⟩
  | .hbm, ⟨31, _⟩ => ⟨S50000x512, .f32⟩
  | .hbm, ⟨32, _⟩ => ⟨S150000x1, .i32⟩
  | .hbm, ⟨33, _⟩ => ⟨S50000x512, .f32⟩
  | .hbm, ⟨34, _⟩ => ⟨S50000x512, .f32⟩
  | .hbm, ⟨35, _⟩ => ⟨S50000x512, .f32⟩
  | .hbm, ⟨36, _⟩ => ⟨S1x512, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S50000x512, .f32⟩
  | .hbm, ⟨41, _⟩ => ⟨S50000x512, .f32⟩
  | .hbm, ⟨42, _⟩ => ⟨S50000x512, .f32⟩
  | .hbm, ⟨43, _⟩ => ⟨S1x512, .f32⟩
  | .hbm, ⟨44, _⟩ => ⟨S50000x512, .f32⟩
  | .hbm, ⟨45, _⟩ => ⟨S50000x512, .f32⟩
  | .hbm, ⟨46, _⟩ => ⟨S1x150000, .i32⟩
  | .hbm, ⟨47, _⟩ => ⟨S150000, .i32⟩
  | .hbm, ⟨48, _⟩ => ⟨S_, .i32⟩
  | .hbm, ⟨49, _⟩ => ⟨S150000, .i32⟩
  | .hbm, ⟨50, _⟩ => ⟨S150000, .i1⟩
  | .hbm, ⟨51, _⟩ => ⟨S_, .i32⟩
  | .hbm, ⟨52, _⟩ => ⟨S150000, .i32⟩
  | .hbm, ⟨53, _⟩ => ⟨S150000, .i32⟩
  | .hbm, ⟨54, _⟩ => ⟨S150000, .i32⟩
  | .hbm, ⟨55, _⟩ => ⟨S150000x1, .i32⟩
  | .hbm, ⟨56, _⟩ => ⟨S150000x512, .f32⟩
  | .hbm, ⟨57, _⟩ => ⟨S1x150000, .i32⟩
  | .hbm, ⟨58, _⟩ => ⟨S150000, .i32⟩
  | .hbm, ⟨59, _⟩ => ⟨S_, .f32⟩
  | .hbm, ⟨60, _⟩ => ⟨S50000x512, .f32⟩
  | .hbm, ⟨61, _⟩ => ⟨S150000x1, .i32⟩
  | .hbm, ⟨62, _⟩ => ⟨S50000x512, .f32⟩
  | .hbm, ⟨63, _⟩ => ⟨S50000x512, .f32⟩
  | .hbm, ⟨64, _⟩ => ⟨S50000x512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S50000x512, .f32⟩
  | .hbm, ⟨70, _⟩ => ⟨S50000x512, .f32⟩
  | .hbm, ⟨71, _⟩ => ⟨S50000x512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S50000x512, .f32⟩
  | .hbm, ⟨76, _⟩ => ⟨S1x150000, .i32⟩
  | .hbm, ⟨77, _⟩ => ⟨S150000, .i32⟩
  | .hbm, ⟨78, _⟩ => ⟨S_, .i32⟩
  | .hbm, ⟨79, _⟩ => ⟨S150000, .i32⟩
  | .hbm, ⟨80, _⟩ => ⟨S150000, .i1⟩
  | .hbm, ⟨81, _⟩ => ⟨S_, .i32⟩
  | .hbm, ⟨82, _⟩ => ⟨S150000, .i32⟩
  | .hbm, ⟨83, _⟩ => ⟨S150000, .i32⟩
  | .hbm, ⟨84, _⟩ => ⟨S150000, .i32⟩
  | .hbm, ⟨85, _⟩ => ⟨S150000x1, .i32⟩
  | .hbm, ⟨86, _⟩ => ⟨S150000x512, .f32⟩
  | .hbm, ⟨87, _⟩ => ⟨S1x150000, .i32⟩
  | .hbm, ⟨88, _⟩ => ⟨S150000, .i32⟩
  | .hbm, ⟨89, _⟩ => ⟨S_, .f32⟩
  | .hbm, ⟨90, _⟩ => ⟨S50000x512, .f32⟩
  | .hbm, ⟨91, _⟩ => ⟨S150000x1, .i32⟩
  | .hbm, ⟨92, _⟩ => ⟨S50000x512, .f32⟩
  | .hbm, ⟨93, _⟩ => ⟨S50000x512, .f32⟩
  | .hbm, ⟨94, _⟩ => ⟨S50000x512, .f32⟩
  | .hbm, ⟨95, _⟩ => ⟨S1x512, .f32⟩
  | .hbm, ⟨96, _⟩ => ⟨S50000x512, .f32⟩
  | .hbm, ⟨97, _⟩ => ⟨S50000x512, .f32⟩
  | .hbm, ⟨98, _⟩ => ⟨S_, .f32⟩
  | .hbm, ⟨99, _⟩ => ⟨S50000x512, .f32⟩
  | .hbm, ⟨100, _⟩ => ⟨S50000x512, .f32⟩
  | .hbm, ⟨101, _⟩ => ⟨S50000x512, .f32⟩
  | .hbm, ⟨102, _⟩ => ⟨S1x512, .f32⟩
  | .hbm, ⟨103, _⟩ => ⟨S50000x512, .f32⟩
  | .hbm, ⟨104, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_1 : Ref sig .tc := ⟨.hbm, 48, rfl⟩
abbrev main_v26 : Ref sig .tc := ⟨.hbm, 49, rfl⟩
abbrev main_v27 : Ref sig .tc := ⟨.hbm, 50, rfl⟩
abbrev main_c_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_4 : Ref sig .tc := ⟨.hbm, 78, rfl⟩
abbrev main_v51 : Ref sig .tc := ⟨.hbm, 79, rfl⟩
abbrev main_v52 : Ref sig .tc := ⟨.hbm, 80, rfl⟩
abbrev main_c_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000_S150000x1_0 : S150000.BroadcastsInDim S150000x1 (![0] : Fin 1 → Fin S150000x1.rank)
  slices_S2x150000_S1x150000_1_0 : S2x150000.Slices ![1, 0] S1x150000
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S50000x512_S512x512_S50000x512_1_0_0_1_n_n_wf : DotDims.WF S50000x512 S512x512 S50000x512 [1] [0] [0] [1] [] []

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The idealized kernel's run with every unscoped buffer NAMED at the end. The program is two kernel
  regions among stretches of host operations; its generated frame follows the buffers' contents through the
  four segments (host, region, host, region) to a last valuation, and keeps of it only that the arguments are
  unchanged. Here the same run is read once more, keeping the whole last valuation: after the run every unscoped
  buffer holds what that valuation says, the two result arrays included.
-/
import proofs.«160253_j81552839016473_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the contents the last segment boundary gives it. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.Hand

end
-- ==== Proof.MlpRow.lean ====
/-
  One entry of a two-layer perceptron applied to ONE ROW of activations, over the extended reals.
  For a row `h` of 512 activations, weights `w1`, `w2` (512 × 512) and biases `b1`, `b2` (512):
    hidden[k] = max (∑ⱼ h[j] · w1[j,k] + b1[k]) 0
    out[q]    = ∑ₖ hidden[k] · w2[k,q] + b2[q].
  A row of the layer's output depends on the same row of its input and on nothing else, so the
  same function describes a row of a 1000-row block, of a 2000-row block and of the whole
  50000-row array. The zero of the rectifier is kept as the f32 word it is written with.
-/
import Idealize.ShloMosaic.PureOps.Ideal
import Idealize.ShloMosaic.PureOps.Ideal.Laws
import Idealize.ShloMosaic.Lib.ValueIdx

noncomputable section

namespace Cert.Mlp

open Idealize.ShloMosaic

/-- The rectified first layer at hidden unit `k`. -/
def hiddenRow (h : Fin 512 → EReal) (w1 : Fin 512 → Fin 512 → EReal) (b1 : Fin 512 → EReal) (k : Fin 512) : EReal :=
  max ((∑ j : Fin 512, h j * w1 j k) + b1 k) (Ideal.ofBits .f32 0x00000000#32)

/-- The second layer at output column `q`. -/
def mlpRow (h : Fin 512 → EReal) (w1 : Fin 512 → Fin 512 → EReal) (b1 : Fin 512 → EReal)
    (w2 : Fin 512 → Fin 512 → EReal) (b2 : Fin 512 → EReal) (q : Fin 512) : EReal :=
  (∑ k : Fin 512, hiddenRow h w1 b1 k * w2 k q) + b2 q

/-- The perceptron of a row depends on the row, the weights, the biases and the column only through their values. -/
theorem mlpRow_congr {h h' : Fin 512 → EReal} {w1 w1' : Fin 512 → Fin 512 → EReal} {b1 b1' : Fin 512 → EReal}
    {w2 w2' : Fin 512 → Fin 512 → EReal} {b2 b2' : Fin 512 → EReal} {q q' : Fin 512}
    (eh : ∀ j, h j = h' j) (e1 : ∀ j k, w1 j k = w1' j k) (f1 : ∀ k, b1 k = b1' k)
    (e2 : ∀ k q, w2 k q = w2' k q) (f2 : ∀ q, b2 q = b2' q) (eq : q = q') :
    mlpRow h w1 b1 w2 b2 q = mlpRow h' w1' b1' w2' b2' q' := by
  obtain rfl : h = h' := funext eh
  obtain rfl : w1 = w1' := funext fun j => funext (e1 j)
  obtain rfl : b1 = b1' := funext f1
  obtain rfl : w2 = w2' := funext fun k => funext (e2 k)
  obtain rfl : b2 = b2' := funext f2
  subst eq
  rfl

end Cert.Mlp

end
-- ==== Proof.Block0.lean ====
/-
  The body of the 1000-row kernel read at one row and one column. Every format change is the identity
  on the extended reals, a `tpu.matmul` into the zero accumulator is the plain sum of products over the
  contracted axis, and a [1,512] bias broadcast down the rows is the bias at the column. So the
  body's value at row `p`, column `q` of its block is the perceptron of row `p` of the activation block.
-/
import proofs.«160253_j81552839016473_2_alg».proof.Proof.Gen.KernelIdeal.Skeleton
import proofs.«160253_j81552839016473_2_alg».proof.Proof.MlpRow
import Idealize.ShloMosaic.Lib.ValueIdx
import Idealize.ShloMosaic.Lib.Pipeline.Value
import Idealize.ShloMosaic.PureOps.Ideal.Laws

noncomputable section

namespace Cert.KernelIdeal.Block0

open Cert.KernelIdeal Cert.KernelIdeal.Gen Idealize.ShloMosaic Idealize.ShloMosaic.ValueIdx Cert.Mlp

/-! ## The dot's operand indices: output (row, column) and contraction coordinate κ give (row, κ) and (κ, column) -/

theorem lhs_row (i : S1000x512.Idx) (κ : dot_S1000x512_S512x512_S1000x512_1_0_0_1_n_n.contr.Idx) : (dot_S1000x512_S512x512_S1000x512_1_0_0_1_n_n.lhsIdx i κ 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_col (i : S1000x512.Idx) (κ : dot_S1000x512_S512x512_S1000x512_1_0_0_1_n_n.contr.Idx) : (dot_S1000x512_S512x512_S1000x512_1_0_0_1_n_n.lhsIdx i κ 1).val = (κ ⟨0, by decide⟩).val :=
  dot_S1000x512_S512x512_S1000x512_1_0_0_1_n_n.lhsIdx_val_of_single rfl i κ
theorem rhs_row (i : S1000x512.Idx) (κ : dot_S1000x512_S512x512_S1000x512_1_0_0_1_n_n.contr.Idx) : (dot_S1000x512_S512x512_S1000x512_1_0_0_1_n_n.rhsIdx i κ 0).val = (κ ⟨0, by decide⟩).val :=
  dot_S1000x512_S512x512_S1000x512_1_0_0_1_n_n.rhsIdx_val_of_single rfl i κ
theorem rhs_col (i : S1000x512.Idx) (κ : dot_S1000x512_S512x512_S1000x512_1_0_0_1_n_n.contr.Idx) : (dot_S1000x512_S512x512_S1000x512_1_0_0_1_n_n.rhsIdx i κ 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A matmul into the zero accumulator, read at (p, q): the sum over the 512 contracted coordinates. -/
theorem matmul_at {φ₁ φ₂ : FTy} (l : FVec Ideal S1000x512 φ₁) (r : FVec Ideal S512x512 φ₂) (p : Fin 1000) (q : Fin 512) :
    FloatOps.matmul dot_S1000x512_S512x512_S1000x512_1_0_0_1_n_n none l r (constant S1000x512 .f32 0x00000000#32) (ix2 p q)
      = ∑ k : Fin 512, l (ix2 p k) * r (ix2 k q) := by
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact lhs_row _ _
    | ⟨1, _⟩ => exact (lhs_col _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- A [1,512] row broadcast down 1000 rows, read at (p, q): the row at column q. -/
theorem bias_at (b : FVec Ideal S1x512 .f32) (p : Fin 1000) (q : Fin 512) :
    broadcastTo S1000x512 (shapeCast S1x512 b shapeCasts_S1x512_S1x512) broadcasts_S1x512_S1000x512 (ix2 p q) = b (ix2 0 q) := by
  rw [shapeCast_self]
  refine broadcastTo_apply b broadcasts_S1x512_S1000x512 (ix2 p q) (ix2 0 q) fun a => ?_
  match a with
  | ⟨0, _⟩ => rfl
  | ⟨1, _⟩ => rfl

/-- One layer before its activation: the matmul plus the bias row, read at (p, q). -/
theorem affine_at {φ : FTy} (l : FVec Ideal S1000x512 φ) (w : FVec Ideal S512x512 .bf16) (b : FVec Ideal S1x512 .f32) (p : Fin 1000) (q : Fin 512) :
    addf (matmul dot_S1000x512_S512x512_S1000x512_1_0_0_1_n_n none l (shapeCast S512x512 w shapeCasts_S512x512_S512x512) (constant S1000x512 .f32 0x00000000#32))
        (broadcastTo S1000x512 (shapeCast S1x512 b shapeCasts_S1x512_S1x512) broadcasts_S1x512_S1000x512) (ix2 p q)
      = (∑ k : Fin 512, l (ix2 p k) * w (ix2 k q)) + b (ix2 0 q) := by
  show FloatOps.matmul dot_S1000x512_S512x512_S1000x512_1_0_0_1_n_n none l (shapeCast S512x512 w shapeCasts_S512x512_S512x512) (constant S1000x512 .f32 0x00000000#32) (ix2 p q)
      + broadcastTo S1000x512 (shapeCast S1x512 b shapeCasts_S1x512_S1x512) broadcasts_S1x512_S1000x512 (ix2 p q) = _
  rw [matmul_at, bias_at, shapeCast_self]

/-- The rectified hidden activations of one branch, read at (p, k). -/
theorem hidden_at (x : Vec Ideal S1000x512 .f32) (w1 : Vec Ideal S512x512 .bf16) (b1 : Vec Ideal S1x512 .f32) (p : Fin 1000) (k : Fin 512) :
    k0_pay3 x w1 b1 (ix2 p k) = hiddenRow (fun j => x (ix2 p j)) (fun j k => w1 (ix2 j k)) (fun k => b1 (ix2 0 k)) k := by
  unfold k0_pay3 hiddenRow
  show max (addf (matmul dot_S1000x512_S512x512_S1000x512_1_0_0_1_n_n none (truncf .bf16 (shapeCast S1000x512 x shapeCasts_S1000x512_S1000x512) bitsLt_bf16_f32) (shapeCast S512x512 w1 shapeCasts_S512x512_S512x512) (constant S1000x512 .f32 0x00000000#32))
        (broadcastTo S1000x512 (shapeCast S1x512 b1 shapeCasts_S1x512_S1x512) broadcasts_S1x512_S1000x512) (ix2 p k)) (Ideal.ofBits .f32 0x00000000#32) = _
  rw [affine_at, shapeCast_self]
  rfl

/-- The first branch's output (both layers), read at (p, q). -/
theorem branch1_at (x : Vec Ideal S1000x512 .f32) (w1 : Vec Ideal S512x512 .bf16) (b1 : Vec Ideal S1x512 .f32) (w2 : Vec Ideal S512x512 .bf16) (b2 : Vec Ideal S1x512 .f32) (p : Fin 1000) (q : Fin 512) :
    k0_pay2 x w1 b1 w2 b2 (ix2 p q) = mlpRow (fun j => x (ix2 p j)) (fun j k => w1 (ix2 j k)) (fun k => b1 (ix2 0 k)) (fun k q => w2 (ix2 k q)) (fun q => b2 (ix2 0 q)) q := by
  have e : k0_pay2 x w1 b1 w2 b2 = addf (matmul dot_S1000x512_S512x512_S1000x512_1_0_0_1_n_n none (k0_pay3 x w1 b1) (shapeCast S512x512 w2 shapeCasts_S512x512_S512x512) (constant S1000x512 .f32 0x00000000#32))
        (broadcastTo S1000x512 (shapeCast S1x512 b2 shapeCasts_S1x512_S1x512) broadcasts_S1x512_S1000x512) := rfl
  rw [e, affine_at]
  unfold mlpRow
  refine congrArg (· + b2 (ix2 0 q)) (Finset.sum_congr rfl fun k _ => ?_)
  rw [hidden_at]

/-- THE DUAL BODY's stored value at (p, q): the two branches' perceptrons of row p of their blocks, added. -/
theorem dual_at (x0 : Vec Ideal S1000x512 .f32) (x1 : Vec Ideal S512x512 .bf16) (x2 : Vec Ideal S1x512 .f32) (x3 : Vec Ideal S512x512 .bf16) (x4 : Vec Ideal S1x512 .f32)
    (x5 : Vec Ideal S1000x512 .f32) (x6 : Vec Ideal S512x512 .bf16) (x7 : Vec Ideal S1x512 .f32) (x8 : Vec Ideal S512x512 .bf16) (x9 : Vec Ideal S1x512 .f32) (p : Fin 1000) (q : Fin 512) :
    k0_pay1 (k0_pay2 x0 x1 x2 x3 x4) (k0_pay3 x5 x6 x7) (k0_pay4 x8) (constant S1000x512 .f32 0x00000000#32) x9 (ix2 p q)
      = mlpRow (fun j => x0 (ix2 p j)) (fun j k => x1 (ix2 j k)) (fun k => x2 (ix2 0 k)) (fun k q => x3 (ix2 k q)) (fun q => x4 (ix2 0 q)) q
        + mlpRow (fun j => x5 (ix2 p j)) (fun j k => x6 (ix2 j k)) (fun k => x7 (ix2 0 k)) (fun k q => x8 (ix2 k q)) (fun q => x9 (ix2 0 q)) q := by
  have e : k0_pay1 (k0_pay2 x0 x1 x2 x3 x4) (k0_pay3 x5 x6 x7) (k0_pay4 x8) (constant S1000x512 .f32 0x00000000#32) x9
      = addf (k0_pay2 x0 x1 x2 x3 x4) (addf (matmul dot_S1000x512_S512x512_S1000x512_1_0_0_1_n_n none (k0_pay3 x5 x6 x7) (shapeCast S512x512 x8 shapeCasts_S512x512_S512x512) (constant S1000x512 .f32 0x00000000#32))
        (broadcastTo S1000x512 (shapeCast S1x512 x9 shapeCasts_S1x512_S1x512) broadcasts_S1x512_S1000x512)) := rfl
  rw [e]
  show k0_pay2 x0 x1 x2 x3 x4 (ix2 p q) + addf _ _ (ix2 p q) = _
  rw [branch1_at, affine_at]
  unfold mlpRow
  refine congrArg (_ + ·) (congrArg (· + x9 (ix2 0 q)) (Finset.sum_congr rfl fun k _ => ?_))
  rw [hidden_at]

end Cert.KernelIdeal.Block0

end
-- ==== Proof.Region0.lean ====
/-
  Region 0 (the dual kernel) as ONE function of the arrays it finds. The grid has 50 points; point t
  works on rows 1000·t … 1000·t + 999 of the two activation arrays, on the whole of the four weight
  matrices and the four bias rows, and writes rows 1000·t … 1000·t + 999 of the result. A row of the result is
  therefore the sum of the two perceptrons of the same row of the two activation arrays, and the 50 row blocks
  cover the 50000 rows. Everything is stated for ANY contents `V` of the buffers at the region's entry.
-/
import proofs.«160253_j81552839016473_2_alg».proof.Proof.Gen.KernelIdeal.Frame
import proofs.«160253_j81552839016473_2_alg».proof.Proof.Block0
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation windows and the result window sit at block row t,
    block column 0; the weight and bias windows at block (0, 0). -/
theorem idx_facts : ∀ t : Fin cfg0.N,
    (win0_0.index t (0 : Fin 2) = t.val ∧ win0_0.index t (1 : Fin 2) = 0)
    ∧ (win0_5.index t (0 : Fin 2) = t.val ∧ win0_5.index t (1 : Fin 2) = 0)
    ∧ (win0_10.index t (0 : Fin 2) = t.val ∧ win0_10.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem t_lt (t : Fin cfg0.N) : t.val < 50 := by
  have h := t.isLt
  have hN : cfg0.N = 50 := N_0
  omega

/-- The result array the region leaves, row by row: the two perceptrons of the same row of the two activation arrays, added. -/
def G (c : Dev nD) : S50000x512.Idx → EReal := fun i =>
  mlpRow (fun j => (V c main_v14 : S50000x512.Idx → EReal) (ix2 ⟨(i 0).val, (i 0).isLt⟩ j)) (fun j k => (V c main_v45 : S512x512.Idx → EReal) (ix2 j k))
      (fun k => (V c main_v46 : S1x512.Idx → EReal) (ix2 0 k)) (fun k q => (V c main_v47 : S512x512.Idx → EReal) (ix2 k q))
      (fun q => (V c main_v48 : S1x512.Idx → EReal) (ix2 0 q)) ⟨(i 1).val, (i 1).isLt⟩
  + mlpRow (fun j => (V c main_v29 : S50000x512.Idx → EReal) (ix2 ⟨(i 0).val, (i 0).isLt⟩ j)) (fun j k => (V c main_v49 : S512x512.Idx → EReal) (ix2 j k))
      (fun k => (V c main_v50 : S1x512.Idx → EReal) (ix2 0 k)) (fun k q => (V c main_v51 : S512x512.Idx → EReal) (ix2 k q))
      (fun q => (V c main_v52 : S1x512.Idx → EReal) (ix2 0 q)) ⟨(i 1).val, (i 1).isLt⟩

/-! ## Each window's block at point t, read where the arrays hold it -/

/-- Row p of point t's block of an activation window is row 1000·t + p of its array. -/
theorem act0 (c : Dev nD) (t : Fin cfg0.N) (p : Fin 1000) (j : Fin 512) (r : Fin 50000) (hr : r.val = t.val * 1000 + p.val) :
    (iblk0 V c 0 t : S1000x512.Idx → EReal) (ix2 p j) = (V c main_v14 : S50000x512.Idx → EReal) (ix2 r j) := by
  obtain ⟨⟨e0, e1⟩, -⟩ := idx_facts t
  unfold iblk0
  rw [View.read_apply]
  show (V c main_v14 : S50000x512.Idx → EReal) _ = _
  refine congrArg _ (funext fun a => Fin.ext ?_)
  match a with
  | ⟨0, _⟩ => show win0_0.index t (0 : Fin 2) * 1000 + 1 * p.val = r.val; rw [e0, hr]; omega
  | ⟨1, _⟩ => show win0_0.index t (1 : Fin 2) * 512 + 1 * j.val = j.val; rw [e1]; omega
theorem act5 (c : Dev nD) (t : Fin cfg0.N) (p : Fin 1000) (j : Fin 512) (r : Fin 50000) (hr : r.val = t.val * 1000 + p.val) :
    (iblk0 V c 5 t : S1000x512.Idx → EReal) (ix2 p j) = (V c main_v29 : S50000x512.Idx → EReal) (ix2 r j) := by
  obtain ⟨-, ⟨e0, e1⟩, -⟩ := idx_facts t
  unfold iblk0
  rw [View.read_apply]
  show (V c main_v29 : S50000x512.Idx → EReal) _ = _
  refine congrArg _ (funext fun a => Fin.ext ?_)
  match a with
  | ⟨0, _⟩ => show win0_5.index t (0 : Fin 2) * 1000 + 1 * p.val = r.val; rw [e0, hr]; omega
  | ⟨1, _⟩ => show win0_5.index t (1 : Fin 2) * 512 + 1 * j.val = j.val; rw [e1]; omega
/-- A weight window's block is the whole weight matrix at every point. -/
theorem wt1 (c : Dev nD) (t : Fin cfg0.N) (j k : Fin 512) :
    (iblk0 V c 1 t : S512x512.Idx → EReal) (ix2 j k) = (V c main_v45 : S512x512.Idx → EReal) (ix2 j k) := by
  have e := (idx_facts t).2.2.2.1
  unfold iblk0
  rw [View.read_apply]
  show (V c main_v45 : S512x512.Idx → EReal) _ = _
  refine congrArg _ (funext fun a => Fin.ext ?_)
  match a with
  | ⟨0, _⟩ => show win0_1.index t (0 : Fin 2) * 512 + 1 * j.val = j.val; rw [e.1]; omega
  | ⟨1, _⟩ => show win0_1.index t (1 : Fin 2) * 512 + 1 * k.val = k.val; rw [e.2]; omega
/-- A weight window's block is the whole weight matrix at every point. -/
theorem wt3 (c : Dev nD) (t : Fin cfg0.N) (j k : Fin 512) :
    (iblk0 V c 3 t : S512x512.Idx → EReal) (ix2 j k) = (V c main_v47 : S512x512.Idx → EReal) (ix2 j k) := by
  have e := (idx_facts t).2.2.2.2.2.1
  unfold iblk0
  rw [View.read_apply]
  show (V c main_v47 : S512x512.Idx → EReal) _ = _
  refine congrArg _ (funext fun a => Fin.ext ?_)
  match a with
  | ⟨0, _⟩ => show win0_3.index t (0 : Fin 2) * 512 + 1 * j.val = j.val; rw [e.1]; omega
  | ⟨1, _⟩ => show win0_3.index t (1 : Fin 2) * 512 + 1 * k.val = k.val; rw [e.2]; omega
/-- A weight window's block is the whole weight matrix at every point. -/
theorem wt6 (c : Dev nD) (t : Fin cfg0.N) (j k : Fin 512) :
    (iblk0 V c 6 t : S512x512.Idx → EReal) (ix2 j k) = (V c main_v49 : S512x512.Idx → EReal) (ix2 j k) := by
  have e := (idx_facts t).2.2.2.2.2.2.2.1
  unfold iblk0
  rw [View.read_apply]
  show (V c main_v49 : S512x512.Idx → EReal) _ = _
  refine congrArg _ (funext fun a => Fin.ext ?_)
  match a with
  | ⟨0, _⟩ => show win0_6.index t (0 : Fin 2) * 512 + 1 * j.val = j.val; rw [e.1]; omega
  | ⟨1, _⟩ => show win0_6.index t (1 : Fin 2) * 512 + 1 * k.val = k.val; rw [e.2]; omega
/-- A weight window's block is the whole weight matrix at every point. -/
theorem wt8 (c : Dev nD) (t : Fin cfg0.N) (j k : Fin 512) :
    (iblk0 V c 8 t : S512x512.Idx → EReal) (ix2 j k) = (V c main_v51 : S512x512.Idx → EReal) (ix2 j k) := by
  have e := (idx_facts t).2.2.2.2.2.2.2.2.2.1
  unfold iblk0
  rw [View.read_apply]
  show (V c main_v51 : S512x512.Idx → EReal) _ = _
  refine congrArg _ (funext fun a => Fin.ext ?_)
  match a with
  | ⟨0, _⟩ => show win0_8.index t (0 : Fin 2) * 512 + 1 * j.val = j.val; rw [e.1]; omega
  | ⟨1, _⟩ => show win0_8.index t (1 : Fin 2) * 512 + 1 * k.val = k.val; rw [e.2]; omega
/-- A bias window's block is the whole bias row at every point. -/
theorem bs2 (c : Dev nD) (t : Fin cfg0.N) (k : Fin 512) :
    (iblk0 V c 2 t : S1x512.Idx → EReal) (ix2 0 k) = (V c main_v46 : S1x512.Idx → EReal) (ix2 0 k) := by
  have e := (idx_facts t).2.2.2.2.1
  unfold iblk0
  rw [View.read_apply]
  show (V c main_v46 : S1x512.Idx → EReal) _ = _
  refine congrArg _ (funext fun a => Fin.ext ?_)
  match a with
  | ⟨0, _⟩ => show win0_2.index t (0 : Fin 2) * 1 + 1 * 0 = 0; rw [e.1]
  | ⟨1, _⟩ => show win0_2.index t (1 : Fin 2) * 512 + 1 * k.val = k.val; rw [e.2]; omega
/-- A bias window's block is the whole bias row at every point. -/
theorem bs4 (c : Dev nD) (t : Fin cfg0.N) (k : Fin 512) :
    (iblk0 V c 4 t : S1x512.Idx → EReal) (ix2 0 k) = (V c main_v48 : S1x512.Idx → EReal) (ix2 0 k) := by
  have e := (idx_facts t).2.2.2.2.2.2.1
  unfold iblk0
  rw [View.read_apply]
  show (V c main_v48 : S1x512.Idx → EReal) _ = _
  refine congrArg _ (funext fun a => Fin.ext ?_)
  match a with
  | ⟨0, _⟩ => show win0_4.index t (0 : Fin 2) * 1 + 1 * 0 = 0; rw [e.1]
  | ⟨1, _⟩ => show win0_4.index t (1 : Fin 2) * 512 + 1 * k.val = k.val; rw [e.2]; omega
/-- A bias window's block is the whole bias row at every point. -/
theorem bs7 (c : Dev nD) (t : Fin cfg0.N) (k : Fin 512) :
    (iblk0 V c 7 t : S1x512.Idx → EReal) (ix2 0 k) = (V c main_v50 : S1x512.Idx → EReal) (ix2 0 k) := by
  have e := (idx_facts t).2.2.2.2.2.2.2.2.1
  unfold iblk0
  rw [View.read_apply]
  show (V c main_v50 : S1x512.Idx → EReal) _ = _
  refine congrArg _ (funext fun a => Fin.ext ?_)
  match a with
  | ⟨0, _⟩ => show win0_7.index t (0 : Fin 2) * 1 + 1 * 0 = 0; rw [e.1]
  | ⟨1, _⟩ => show win0_7.index t (1 : Fin 2) * 512 + 1 * k.val = k.val; rw [e.2]; omega
/-- A bias window's block is the whole bias row at every point. -/
theorem bs9 (c : Dev nD) (t : Fin cfg0.N) (k : Fin 512) :
    (iblk0 V c 9 t : S1x512.Idx → EReal) (ix2 0 k) = (V c main_v52 : S1x512.Idx → EReal) (ix2 0 k) := by
  have e := (idx_facts t).2.2.2.2.2.2.2.2.2.2
  unfold iblk0
  rw [View.read_apply]
  show (V c main_v52 : S1x512.Idx → EReal) _ = _
  refine congrArg _ (funext fun a => Fin.ext ?_)
  match a with
  | ⟨0, _⟩ => show win0_9.index t (0 : Fin 2) * 1 + 1 * 0 = 0; rw [e.1]
  | ⟨1, _⟩ => show win0_9.index t (1 : Fin 2) * 512 + 1 * k.val = k.val; rw [e.2]; omega

/-- Entry (p, q) of the result window's block at point t sits at row 1000·t + p, column q of the result array. -/
theorem emb10 (t : Fin cfg0.N) (p : Fin 1000) (q : Fin 512) (r : Fin 50000) (hr : r.val = t.val * 1000 + p.val) :
    (((cfg0.win 10).blk t).view.emb (ix2 p q) : S50000x512.Idx) = ix2 r q := by
  have e := (idx_facts t).2.2.1
  funext a
  apply Fin.ext
  match a with
  | ⟨0, _⟩ => show win0_10.index t (0 : Fin 2) * 1000 + 1 * p.val = r.val; rw [e.1, hr]; omega
  | ⟨1, _⟩ => show win0_10.index t (1 : Fin 2) * 512 + 1 * q.val = q.val; rw [e.2]; omega

/-! ## What a point writes back, the cover, the array -/

/-- WHAT POINT t WRITES BACK is block t of `G`. -/
theorem flushed_eq (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  unfold out0_10
  rw [View.canon_unit_zero hz]
  simp only [View.ld_unit_zero (S := S1000x512) hz, View.ld_unit_zero (S := S512x512) hz, View.ld_unit_zero (S := S1x512) hz]
  funext y
  obtain ⟨p, q, rfl⟩ : ∃ (p : Fin 1000) (q : Fin 512), y = ix2 p q := ⟨y 0, y 1, eq_ix2 y⟩
  have ht := t_lt t
  rw [View.read_apply, emb10 t p q ⟨t.val * 1000 + p.val, by have := p.isLt; omega⟩ rfl]
  refine (Block0.dual_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  unfold G
  refine congrArg₂ (· + ·)
    (mlpRow_congr (fun j => act0 V c t p j _ rfl) (fun j k => wt1 V c t j k) (fun k => bs2 V c t k) (fun k q => wt3 V c t k q) (fun q => bs4 V c t q) rfl)
    (mlpRow_congr (fun j => act5 V c t p j _ rfl) (fun j k => wt6 V c t j k) (fun k => bs7 V c t k) (fun k q => wt8 V c t k q) (fun q => bs9 V c t q) rfl)

/-- An index of the result array is in point t's block iff each coordinate is in the block's range on its axis. -/
theorem mem_blk (t : Fin cfg0.N) (i : S50000x512.Idx) :
    i ∈ ((cfg0.win 10).blk t).view.set ↔ ∀ a : Fin 2, win0_10.index t a * S1000x512.size a ≤ (i a).val ∧ (i a).val < win0_10.index t a * S1000x512.size a + S1000x512.size a := by
  show i ∈ ((View.whole main_v53).slice (win0_10.rect t)).set ↔ _
  rw [View.set_slice_whole, Rect.mem_set_unit]
  exact Iff.rfl

/-- Row r of the result is written by point r / 1000. -/
theorem cover (i : S50000x512.Idx) : ∃ t : Fin cfg0.N, (cfg0.win 10).flush t = true ∧ i ∈ ((cfg0.win 10).blk t).view.set := by
  have h0 : (i 0).val < 50000 := (i 0).isLt
  have h1 : (i 1).val < 512 := (i 1).isLt
  have hN : cfg0.N = 50 := N_0
  let t : Fin cfg0.N := ⟨(i 0).val / 1000, by omega⟩
  have e := (idx_facts t).2.2.1
  refine ⟨t, flush0_10 t, ?_⟩
  rw [mem_blk]
  intro a
  match a with
  | ⟨0, _⟩ => show win0_10.index t (0 : Fin 2) * 1000 ≤ (i 0).val ∧ (i 0).val < win0_10.index t (0 : Fin 2) * 1000 + 1000
              rw [e.1]; show (i 0).val / 1000 * 1000 ≤ (i 0).val ∧ (i 0).val < (i 0).val / 1000 * 1000 + 1000; omega
  | ⟨1, _⟩ => show win0_10.index t (1 : Fin 2) * 512 ≤ (i 1).val ∧ (i 1).val < win0_10.index t (1 : Fin 2) * 512 + 512
              rw [e.2]; omega

/-- THE RESULT ARRAY after the region is `G` of the arrays the region found. -/
theorem final (c : Dev nD) : (dat0 V c).arrAt 10 cfg0.N = G V c :=
  (dat0 V c).arrAt_eq_of_cover 10 (G V c) (fun t _ => flushed_eq V c t) (cover)

end Cert.KernelIdeal.Region0

end
-- ==== Proof.Block1.lean ====
/-
  The body of the 2000-row kernel read at one row and one column. Every format change is the identity
  on the extended reals, a `tpu.matmul` into the zero accumulator is the plain sum of products over the
  contracted axis, and a [1,512] bias broadcast down the rows is the bias at the column. So the
  body's value at row `p`, column `q` of its block is the perceptron of row `p` of the activation block.
-/
import proofs.«160253_j81552839016473_2_alg».proof.Proof.Gen.KernelIdeal.Skeleton
import proofs.«160253_j81552839016473_2_alg».proof.Proof.MlpRow
import Idealize.ShloMosaic.Lib.ValueIdx
import Idealize.ShloMosaic.Lib.Pipeline.Value
import Idealize.ShloMosaic.PureOps.Ideal.Laws

noncomputable section

namespace Cert.KernelIdeal.Block1

open Cert.KernelIdeal Cert.KernelIdeal.Gen Idealize.ShloMosaic Idealize.ShloMosaic.ValueIdx Cert.Mlp

/-! ## The dot's operand indices: output (row, column) and contraction coordinate κ give (row, κ) and (κ, column) -/

theorem lhs_row (i : S2000x512.Idx) (κ : dot_S2000x512_S512x512_S2000x512_1_0_0_1_n_n.contr.Idx) : (dot_S2000x512_S512x512_S2000x512_1_0_0_1_n_n.lhsIdx i κ 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_col (i : S2000x512.Idx) (κ : dot_S2000x512_S512x512_S2000x512_1_0_0_1_n_n.contr.Idx) : (dot_S2000x512_S512x512_S2000x512_1_0_0_1_n_n.lhsIdx i κ 1).val = (κ ⟨0, by decide⟩).val :=
  dot_S2000x512_S512x512_S2000x512_1_0_0_1_n_n.lhsIdx_val_of_single rfl i κ
theorem rhs_row (i : S2000x512.Idx) (κ : dot_S2000x512_S512x512_S2000x512_1_0_0_1_n_n.contr.Idx) : (dot_S2000x512_S512x512_S2000x512_1_0_0_1_n_n.rhsIdx i κ 0).val = (κ ⟨0, by decide⟩).val :=
  dot_S2000x512_S512x512_S2000x512_1_0_0_1_n_n.rhsIdx_val_of_single rfl i κ
theorem rhs_col (i : S2000x512.Idx) (κ : dot_S2000x512_S512x512_S2000x512_1_0_0_1_n_n.contr.Idx) : (dot_S2000x512_S512x512_S2000x512_1_0_0_1_n_n.rhsIdx i κ 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- A matmul into the zero accumulator, read at (p, q): the sum over the 512 contracted coordinates. -/
theorem matmul_at {φ₁ φ₂ : FTy} (l : FVec Ideal S2000x512 φ₁) (r : FVec Ideal S512x512 φ₂) (p : Fin 2000) (q : Fin 512) :
    FloatOps.matmul dot_S2000x512_S512x512_S2000x512_1_0_0_1_n_n none l r (constant S2000x512 .f32 0x00000000#32) (ix2 p q)
      = ∑ k : Fin 512, l (ix2 p k) * r (ix2 k q) := by
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_row _ _
    | ⟨1, _⟩ => exact (lhs_col _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- A [1,512] row broadcast down 2000 rows, read at (p, q): the row at column q. -/
theorem bias_at (b : FVec Ideal S1x512 .f32) (p : Fin 2000) (q : Fin 512) :
    broadcastTo S2000x512 (shapeCast S1x512 b shapeCasts_S1x512_S1x512) broadcasts_S1x512_S2000x512 (ix2 p q) = b (ix2 0 q) := by
  rw [shapeCast_self]
  refine broadcastTo_apply b broadcasts_S1x512_S2000x512 (ix2 p q) (ix2 0 q) fun a => ?_
  match a with
  | ⟨0, _⟩ => rfl
  | ⟨1, _⟩ => rfl

/-- One layer before its activation: the matmul plus the bias row, read at (p, q). -/
theorem affine_at {φ : FTy} (l : FVec Ideal S2000x512 φ) (w : FVec Ideal S512x512 .bf16) (b : FVec Ideal S1x512 .f32) (p : Fin 2000) (q : Fin 512) :
    addf (matmul dot_S2000x512_S512x512_S2000x512_1_0_0_1_n_n none l (shapeCast S512x512 w shapeCasts_S512x512_S512x512) (constant S2000x512 .f32 0x00000000#32))
        (broadcastTo S2000x512 (shapeCast S1x512 b shapeCasts_S1x512_S1x512) broadcasts_S1x512_S2000x512) (ix2 p q)
      = (∑ k : Fin 512, l (ix2 p k) * w (ix2 k q)) + b (ix2 0 q) := by
  show FloatOps.matmul dot_S2000x512_S512x512_S2000x512_1_0_0_1_n_n none l (shapeCast S512x512 w shapeCasts_S512x512_S512x512) (constant S2000x512 .f32 0x00000000#32) (ix2 p q)
      + broadcastTo S2000x512 (shapeCast S1x512 b shapeCasts_S1x512_S1x512) broadcasts_S1x512_S2000x512 (ix2 p q) = _
  rw [matmul_at, bias_at, shapeCast_self]

/-- The rectified hidden activations as a vector: the first matmul plus its bias row, the maximum with zero, narrowed for the second matmul. -/
def hid (x : FVec Ideal S2000x512 .f32) (w1 : FVec Ideal S512x512 .bf16) (b1 : FVec Ideal S1x512 .f32) : FVec Ideal S2000x512 .bf16 :=
  truncf .bf16 (maximumf (addf (matmul dot_S2000x512_S512x512_S2000x512_1_0_0_1_n_n none (truncf .bf16 (shapeCast S2000x512 x shapeCasts_S2000x512_S2000x512) bitsLt_bf16_f32) (shapeCast S512x512 w1 shapeCasts_S512x512_S512x512) (constant S2000x512 .f32 0x00000000#32))
      (broadcastTo S2000x512 (shapeCast S1x512 b1 shapeCasts_S1x512_S1x512) broadcasts_S1x512_S2000x512)) (broadcast S2000x512 (Scalar.ofBits .f32 0x00000000#32))) bitsLt_bf16_f32

/-- The hidden activations read at (p, k). -/
theorem hidden_at (x : Vec Ideal S2000x512 .f32) (w1 : Vec Ideal S512x512 .bf16) (b1 : Vec Ideal S1x512 .f32) (p : Fin 2000) (k : Fin 512) :
    hid x w1 b1 (ix2 p k) = hiddenRow (fun j => x (ix2 p j)) (fun j k => w1 (ix2 j k)) (fun k => b1 (ix2 0 k)) k := by
  unfold hid hiddenRow
  show max (addf (matmul dot_S2000x512_S512x512_S2000x512_1_0_0_1_n_n none (truncf .bf16 (shapeCast S2000x512 x shapeCasts_S2000x512_S2000x512) bitsLt_bf16_f32) (shapeCast S512x512 w1 shapeCasts_S512x512_S512x512) (constant S2000x512 .f32 0x00000000#32))
        (broadcastTo S2000x512 (shapeCast S1x512 b1 shapeCasts_S1x512_S1x512) broadcasts_S1x512_S2000x512) (ix2 p k)) (Ideal.ofBits .f32 0x00000000#32) = _
  rw [affine_at, shapeCast_self]
  rfl

/-- THE SINGLE BODY's stored value at (p, q): the perceptron of row p of its activation block. -/
theorem single_at (x : Vec Ideal S2000x512 .f32) (w1 : Vec Ideal S512x512 .bf16) (b1 : Vec Ideal S1x512 .f32) (w2 : Vec Ideal S512x512 .bf16) (b2 : Vec Ideal S1x512 .f32) (p : Fin 2000) (q : Fin 512) :
    k1_pay1 x w1 b1 w2 b2 (ix2 p q) = mlpRow (fun j => x (ix2 p j)) (fun j k => w1 (ix2 j k)) (fun k => b1 (ix2 0 k)) (fun k q => w2 (ix2 k q)) (fun q => b2 (ix2 0 q)) q := by
  have e : k1_pay1 x w1 b1 w2 b2 = addf (matmul dot_S2000x512_S512x512_S2000x512_1_0_0_1_n_n none (hid x w1 b1) (shapeCast S512x512 w2 shapeCasts_S512x512_S512x512) (constant S2000x512 .f32 0x00000000#32))
        (broadcastTo S2000x512 (shapeCast S1x512 b2 shapeCasts_S1x512_S1x512) broadcasts_S1x512_S2000x512) := rfl
  rw [e, affine_at]
  unfold mlpRow
  refine congrArg (· + b2 (ix2 0 q)) (Finset.sum_congr rfl fun k _ => ?_)
  rw [hidden_at]

end Cert.KernelIdeal.Block1

end
-- ==== Proof.Region1.lean ====
/-
  Region 1 (the single kernel) as ONE function of the arrays it finds. The grid has 25 points; point t works on
  rows 2000·t … 2000·t + 1999 of the activation array, on the whole of the two weight matrices and the two bias
  rows, and writes rows 2000·t … 2000·t + 1999 of the result. A row of the result is the perceptron of the same
  row of the activation array, and the 25 row blocks cover the 50000 rows. Stated for ANY contents `V` of the
  buffers at the region's entry.
-/
import proofs.«160253_j81552839016473_2_alg».proof.Proof.Gen.KernelIdeal.Frame
import proofs.«160253_j81552839016473_2_alg».proof.Proof.Block1
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation window and the result window sit at block row t,
    block column 0; the weight and bias windows at block (0, 0). -/
theorem idx_facts : ∀ t : Fin cfg1.N,
    (win1_0.index t (0 : Fin 2) = t.val ∧ win1_0.index t (1 : Fin 2) = 0)
    ∧ (win1_5.index t (0 : Fin 2) = t.val ∧ win1_5.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

theorem t_lt (t : Fin cfg1.N) : t.val < 25 := by
  have h := t.isLt
  have hN : cfg1.N = 25 := N_1
  omega

/-- The result array the region leaves, row by row: the perceptron of the same row of the activation array. -/
def G (c : Dev nD) : S50000x512.Idx → EReal := fun i =>
  mlpRow (fun j => (V c main_v44 : S50000x512.Idx → EReal) (ix2 ⟨(i 0).val, (i 0).isLt⟩ j)) (fun j k => (V c main_v54 : S512x512.Idx → EReal) (ix2 j k))
      (fun k => (V c main_v55 : S1x512.Idx → EReal) (ix2 0 k)) (fun k q => (V c main_v56 : S512x512.Idx → EReal) (ix2 k q))
      (fun q => (V c main_v57 : S1x512.Idx → EReal) (ix2 0 q)) ⟨(i 1).val, (i 1).isLt⟩

/-! ## Each window's block at point t, read where the arrays hold it -/

/-- Row p of point t's block of the activation window is row 2000·t + p of its array. -/
theorem act0 (c : Dev nD) (t : Fin cfg1.N) (p : Fin 2000) (j : Fin 512) (r : Fin 50000) (hr : r.val = t.val * 2000 + p.val) :
    (iblk1 V c 0 t : S2000x512.Idx → EReal) (ix2 p j) = (V c main_v44 : S50000x512.Idx → EReal) (ix2 r j) := by
  obtain ⟨⟨e0, e1⟩, -⟩ := idx_facts t
  unfold iblk1
  rw [View.read_apply]
  show (V c main_v44 : S50000x512.Idx → EReal) _ = _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 512 + 1 * j.val = j.val; rw [e1]; omega
/-- A weight window's block is the whole weight matrix at every point. -/
theorem wt1 (c : Dev nD) (t : Fin cfg1.N) (j k : Fin 512) :
    (iblk1 V c 1 t : S512x512.Idx → EReal) (ix2 j k) = (V c main_v54 : S512x512.Idx → EReal) (ix2 j k) := by
  have e := (idx_facts t).2.2.1
  unfold iblk1
  rw [View.read_apply]
  show (V c main_v54 : S512x512.Idx → EReal) _ = _
  refine congrArg _ (funext fun a => Fin.ext ?_)
  match a with
  | ⟨0, _⟩ => show win1_1.index t (0 : Fin 2) * 512 + 1 * j.val = j.val; rw [e.1]; omega
  | ⟨1, _⟩ => show win1_1.index t (1 : Fin 2) * 512 + 1 * k.val = k.val; rw [e.2]; omega
/-- A weight window's block is the whole weight matrix at every point. -/
theorem wt3 (c : Dev nD) (t : Fin cfg1.N) (j k : Fin 512) :
    (iblk1 V c 3 t : S512x512.Idx → EReal) (ix2 j k) = (V c main_v56 : S512x512.Idx → EReal) (ix2 j k) := by
  have e := (idx_facts t).2.2.2.2.1
  unfold iblk1
  rw [View.read_apply]
  show (V c main_v56 : S512x512.Idx → EReal) _ = _
  refine congrArg _ (funext fun a => Fin.ext ?_)
  match a with
  | ⟨0, _⟩ => show win1_3.index t (0 : Fin 2) * 512 + 1 * j.val = j.val; rw [e.1]; omega
  | ⟨1, _⟩ => show win1_3.index t (1 : Fin 2) * 512 + 1 * k.val = k.val; rw [e.2]; omega
/-- A bias window's block is the whole bias row at every point. -/
theorem bs2 (c : Dev nD) (t : Fin cfg1.N) (k : Fin 512) :
    (iblk1 V c 2 t : S1x512.Idx → EReal) (ix2 0 k) = (V c main_v55 : S1x512.Idx → EReal) (ix2 0 k) := by
  have e := (idx_facts t).2.2.2.1
  unfold iblk1
  rw [View.read_apply]
  show (V c main_v55 : S1x512.Idx → EReal) _ = _
  refine congrArg _ (funext fun a => Fin.ext ?_)
  match a with
  | ⟨0, _⟩ => show win1_2.index t (0 : Fin 2) * 1 + 1 * 0 = 0; rw [e.1]
  | ⟨1, _⟩ => show win1_2.index t (1 : Fin 2) * 512 + 1 * k.val = k.val; rw [e.2]; omega
/-- A bias window's block is the whole bias row at every point. -/
theorem bs4 (c : Dev nD) (t : Fin cfg1.N) (k : Fin 512) :
    (iblk1 V c 4 t : S1x512.Idx → EReal) (ix2 0 k) = (V c main_v57 : S1x512.Idx → EReal) (ix2 0 k) := by
  have e := (idx_facts t).2.2.2.2.2
  unfold iblk1
  rw [View.read_apply]
  show (V c main_v57 : S1x512.Idx → EReal) _ = _
  refine congrArg _ (funext fun a => Fin.ext ?_)
  match a with
  | ⟨0, _⟩ => show win1_4.index t (0 : Fin 2) * 1 + 1 * 0 = 0; rw [e.1]
  | ⟨1, _⟩ => show win1_4.index t (1 : Fin 2) * 512 + 1 * k.val = k.val; rw [e.2]; omega

/-- Entry (p, q) of the result window's block at point t sits at row 2000·t + p, column q of the result array. -/
theorem emb5 (t : Fin cfg1.N) (p : Fin 2000) (q : Fin 512) (r : Fin 50000) (hr : r.val = t.val * 2000 + p.val) :
    (((cfg1.win 5).blk t).view.emb (ix2 p q) : S50000x512.Idx) = ix2 r q := by
  have e := (idx_facts t).2.1
  funext a
  apply Fin.ext
  match a with
  | ⟨0, _⟩ => show win1_5.index t (0 : Fin 2) * 2000 + 1 * p.val = r.val; rw [e.1, hr]; omega
  | ⟨1, _⟩ => show win1_5.index t (1 : Fin 2) * 512 + 1 * q.val = q.val; rw [e.2]; omega

/-! ## What a point writes back, the cover, the array -/

/-- `G` at row r, column q. -/
theorem G_at (c : Dev nD) (r : Fin 50000) (q : Fin 512) : G V c (ix2 r q) =
    mlpRow (fun j => (V c main_v44 : S50000x512.Idx → EReal) (ix2 r j)) (fun j k => (V c main_v54 : S512x512.Idx → EReal) (ix2 j k))
      (fun k => (V c main_v55 : S1x512.Idx → EReal) (ix2 0 k)) (fun k q => (V c main_v56 : S512x512.Idx → EReal) (ix2 k q))
      (fun q => (V c main_v57 : S1x512.Idx → EReal) (ix2 0 q)) q := rfl

/-- WHAT POINT t WRITES BACK is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x512) hz, View.ld_unit_zero (S := S1x512) hz]
  funext y
  obtain ⟨p, q, rfl⟩ : ∃ (p : Fin 2000) (q : Fin 512), y = ix2 p q := ⟨y 0, y 1, eq_ix2 y⟩
  have ht := t_lt t
  have hp := p.isLt
  rw [View.read_apply, emb5 t p q ⟨t.val * 2000 + p.val, by omega⟩ rfl]
  refine (Block1.single_at (iblk1 V c 0 t) (iblk1 V c 1 t) (iblk1 V c 2 t) (iblk1 V c 3 t) (iblk1 V c 4 t) p q).trans ?_
  refine Eq.trans ?_ (G_at V c ⟨t.val * 2000 + p.val, by omega⟩ q).symm
  exact mlpRow_congr (fun j => act0 V c t p j _ rfl) (fun j k => wt1 V c t j k) (fun k => bs2 V c t k) (fun k q => wt3 V c t k q) (fun q => bs4 V c t q) rfl

/-- An index of the result array is in point t's block iff each coordinate is in the block's range on its axis. -/
theorem mem_blk (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v58).slice (win1_5.rect t)).set ↔ _
  rw [View.set_slice_whole, Rect.mem_set_unit]
  exact Iff.rfl

/-- Row r of the result is written by point r / 2000. -/
theorem cover (i : S50000x512.Idx) : ∃ t : Fin cfg1.N, (cfg1.win 5).flush t = true ∧ i ∈ ((cfg1.win 5).blk t).view.set := by
  have h0 : (i 0).val < 50000 := (i 0).isLt
  have h1 : (i 1).val < 512 := (i 1).isLt
  have hN : cfg1.N = 25 := N_1
  let t : Fin cfg1.N := ⟨(i 0).val / 2000, by omega⟩
  have e := (idx_facts t).2.1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000
              rw [e.1]; show (i 0).val / 2000 * 2000 ≤ (i 0).val ∧ (i 0).val < (i 0).val / 2000 * 2000 + 2000; omega
  | ⟨1, _⟩ => show win1_5.index t (1 : Fin 2) * 512 ≤ (i 1).val ∧ (i 1).val < win1_5.index t (1 : Fin 2) * 512 + 512
              rw [e.2]; omega

/-- THE RESULT ARRAY after the region is `G` of the arrays the region found. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.RefValue.lean ====
/-
  The reference's three perceptrons read at an index. Each is a `dot_general` with the first weight matrix, a bias
  row broadcast down the rows, the maximum with zero, a second `dot_general` and a second bias row; at the extended
  reals a `dot_general` contracting one axis is the plain sum of products over it. So row r, column q of each
  perceptron's output is the perceptron of row r of its input array — the aggregated activations, which this
  module never opens.
-/
import proofs.«160253_j81552839016473_2_alg».proof.Proof.Gen.ReferenceIdeal.Read
import proofs.«160253_j81552839016473_2_alg».proof.Proof.MlpRow
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mlp

/-- The perceptron over the activations aggregated along the first edge set (node type a to node type a). -/
theorem mlp_aa (x0 : (⟨S50000x512, .f32⟩ : BufTy).Contents (Elt Ideal)) (x2 : (⟨S2x150000, .i32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (i : S50000x512.Idx) :
    val_main_v23 (F := Ideal) x0 x2 x5 x6 x7 x8 i
      = mlpRow (fun j => val_main_v14 (F := Ideal) x0 x2 (ix2 ⟨(i 0).val, (i 0).isLt⟩ j)) (fun j k => x5 (ix2 j k)) (fun k => x6 (ix1 k))
          (fun k q => x7 (ix2 k q)) (fun q => x8 (ix1 q)) ⟨(i 1).val, (i 1).isLt⟩ := by
  rw [val_main_v23_apply, val_main_v20_apply, val_main_v22_apply, val_main_v21_apply]
  unfold mlpRow
  refine congrArg₂ (· + ·) (Finset.sum_congr rfl fun k _ => ?_) ?_
  · rw [val_main_v19_apply, val_main_v18_apply, val_main_v15_apply, val_main_v17_apply, val_main_v16_apply, val_main_call0_v0_apply, val_main_call0_cst_apply]
    unfold hiddenRow
    have ea : ∀ j, lidx_main_v15 (lidx_main_v20 i k) j = ix2 ⟨(i 0).val, (i 0).isLt⟩ j := fun j => funext fun a => Fin.ext (by
      match a with
      | ⟨0, _⟩ => rfl
      | ⟨1, _⟩ => rfl)
    have eb : ∀ j, ridx_main_v15 (lidx_main_v20 i k) j = ix2 j k := fun j => funext fun a => Fin.ext (by
      match a with
      | ⟨0, _⟩ => rfl
      | ⟨1, _⟩ => rfl)
    have ec : idx_main_v16 (idx_main_v17 (lidx_main_v20 i k)) = ix1 k := funext fun a => Fin.ext (by
      match a with
      | ⟨0, _⟩ => rfl)
    have ed : ridx_main_v20 i k = ix2 k ⟨(i 1).val, (i 1).isLt⟩ := funext fun a => Fin.ext (by
      match a with
      | ⟨0, _⟩ => rfl
      | ⟨1, _⟩ => rfl)
    simp only [ea, eb, ec, ed]
    rfl
  · exact congrArg x8 (funext fun a => Fin.ext (by
      match a with
      | ⟨0, _⟩ => rfl))

/-- The perceptron over the activations aggregated along the third edge set (node type b to node type a). -/
theorem mlp_ba (x0 x1 : (⟨S50000x512, .f32⟩ : BufTy).Contents (Elt Ideal)) (x4 : (⟨S2x150000, .i32⟩ : BufTy).Contents (Elt Ideal)) (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) (i : S50000x512.Idx) :
    val_main_v47 (F := Ideal) x0 x1 x4 x13 x14 x15 x16 i
      = mlpRow (fun j => val_main_v38 (F := Ideal) x0 x1 x4 (ix2 ⟨(i 0).val, (i 0).isLt⟩ j)) (fun j k => x13 (ix2 j k)) (fun k => x14 (ix1 k))
          (fun k q => x15 (ix2 k q)) (fun q => x16 (ix1 q)) ⟨(i 1).val, (i 1).isLt⟩ := by
  rw [val_main_v47_apply, val_main_v44_apply, val_main_v46_apply, val_main_v45_apply]
  unfold mlpRow
  refine congrArg₂ (· + ·) (Finset.sum_congr rfl fun k _ => ?_) ?_
  · rw [val_main_v43_apply, val_main_v42_apply, val_main_v39_apply, val_main_v41_apply, val_main_v40_apply, val_main_call1_v0_apply, val_main_call1_cst_apply]
    unfold hiddenRow
    have ea : ∀ j, lidx_main_v39 (lidx_main_v44 i k) j = ix2 ⟨(i 0).val, (i 0).isLt⟩ j := fun j => funext fun a => Fin.ext (by
      match a with
      | ⟨0, _⟩ => rfl
      | ⟨1, _⟩ => rfl)
    have eb : ∀ j, ridx_main_v39 (lidx_main_v44 i k) j = ix2 j k := fun j => funext fun a => Fin.ext (by
      match a with
      | ⟨0, _⟩ => rfl
      | ⟨1, _⟩ => rfl)
    have ec : idx_main_v40 (idx_main_v41 (lidx_main_v44 i k)) = ix1 k := funext fun a => Fin.ext (by
      match a with
      | ⟨0, _⟩ => rfl)
    have ed : ridx_main_v44 i k = ix2 k ⟨(i 1).val, (i 1).isLt⟩ := funext fun a => Fin.ext (by
      match a with
      | ⟨0, _⟩ => rfl
      | ⟨1, _⟩ => rfl)
    simp only [ea, eb, ec, ed]
    rfl
  · exact congrArg x16 (funext fun a => Fin.ext (by
      match a with
      | ⟨0, _⟩ => rfl))

/-- The perceptron over the activations aggregated along the second edge set (node type a to node type b). -/
theorem mlp_ab (x0 x1 : (⟨S50000x512, .f32⟩ : BufTy).Contents (Elt Ideal)) (x3 : (⟨S2x150000, .i32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) (i : S50000x512.Idx) :
    val_main_v72 (F := Ideal) x0 x1 x3 x9 x10 x11 x12 i
      = mlpRow (fun j => val_main_v63 (F := Ideal) x0 x1 x3 (ix2 ⟨(i 0).val, (i 0).isLt⟩ j)) (fun j k => x9 (ix2 j k)) (fun k => x10 (ix1 k))
          (fun k q => x11 (ix2 k q)) (fun q => x12 (ix1 q)) ⟨(i 1).val, (i 1).isLt⟩ := by
  rw [val_main_v72_apply, val_main_v69_apply, val_main_v71_apply, val_main_v70_apply]
  unfold mlpRow
  refine congrArg₂ (· + ·) (Finset.sum_congr rfl fun k _ => ?_) ?_
  · rw [val_main_v68_apply, val_main_v67_apply, val_main_v64_apply, val_main_v66_apply, val_main_v65_apply, val_main_call2_v0_apply, val_main_call2_cst_apply]
    unfold hiddenRow
    have ea : ∀ j, lidx_main_v64 (lidx_main_v69 i k) j = ix2 ⟨(i 0).val, (i 0).isLt⟩ j := fun j => funext fun a => Fin.ext (by
      match a with
      | ⟨0, _⟩ => rfl
      | ⟨1, _⟩ => rfl)
    have eb : ∀ j, ridx_main_v64 (lidx_main_v69 i k) j = ix2 j k := fun j => funext fun a => Fin.ext (by
      match a with
      | ⟨0, _⟩ => rfl
      | ⟨1, _⟩ => rfl)
    have ec : idx_main_v65 (idx_main_v66 (lidx_main_v69 i k)) = ix1 k := funext fun a => Fin.ext (by
      match a with
      | ⟨0, _⟩ => rfl)
    have ed : ridx_main_v69 i k = ix2 k ⟨(i 1).val, (i 1).isLt⟩ := funext fun a => Fin.ext (by
      match a with
      | ⟨0, _⟩ => rfl
      | ⟨1, _⟩ => rfl)
    simp only [ea, eb, ec, ed]
    rfl
  · exact congrArg x12 (funext fun a => Fin.ext (by
      match a with
      | ⟨0, _⟩ => rfl))

/-! ## The two results as functions of the arguments -/

/-- The first result, index by index: the two perceptrons over the two aggregations into node type a, added. -/
def outA (x0 x1 : (⟨S50000x512, .f32⟩ : BufTy).Contents (Elt Ideal)) (x2 x4 : (⟨S2x150000, .i32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) :
    S50000x512.Idx → EReal := fun i =>
  mlpRow (fun j => val_main_v14 (F := Ideal) x0 x2 (ix2 ⟨(i 0).val, (i 0).isLt⟩ j)) (fun j k => x5 (ix2 j k)) (fun k => x6 (ix1 k))
      (fun k q => x7 (ix2 k q)) (fun q => x8 (ix1 q)) ⟨(i 1).val, (i 1).isLt⟩
  + mlpRow (fun j => val_main_v38 (F := Ideal) x0 x1 x4 (ix2 ⟨(i 0).val, (i 0).isLt⟩ j)) (fun j k => x13 (ix2 j k)) (fun k => x14 (ix1 k))
      (fun k q => x15 (ix2 k q)) (fun q => x16 (ix1 q)) ⟨(i 1).val, (i 1).isLt⟩

/-- The second result, index by index: the perceptron over the aggregation into node type b. -/
def outB (x0 x1 : (⟨S50000x512, .f32⟩ : BufTy).Contents (Elt Ideal)) (x3 : (⟨S2x150000, .i32⟩ : BufTy).Contents (Elt Ideal))
    (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) :
    S50000x512.Idx → EReal := fun i =>
  mlpRow (fun j => val_main_v63 (F := Ideal) x0 x1 x3 (ix2 ⟨(i 0).val, (i 0).isLt⟩ j)) (fun j k => x9 (ix2 j k)) (fun k => x10 (ix1 k))
      (fun k q => x11 (ix2 k q)) (fun q => x12 (ix1 q)) ⟨(i 1).val, (i 1).isLt⟩

/-- The reference's first result is `outA` of its arguments. -/
theorem ref_a (x0 x1 : (⟨S50000x512, .f32⟩ : BufTy).Contents (Elt Ideal)) (x2 x4 : (⟨S2x150000, .i32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x13 : (⟨S512x512, .f32⟩ : BufTy).Contents (Elt Ideal)) (x14 : (⟨S512, .f32⟩ : BufTy).Contents (Elt Ideal)) (x15 : (⟨S512x512, .f32⟩ : BufTy).Contents (Elt Ideal)) (x16 : (⟨S512, .f32⟩ : BufTy).Contents (Elt Ideal)) :
    val_main_v48 (F := Ideal) x0 x1 x2 x4 x5 x6 x7 x8 x13 x14 x15 x16 = outA x0 x1 x2 x4 x5 x6 x7 x8 x13 x14 x15 x16 := by
  funext i
  rw [val_main_v48_apply, mlp_aa, mlp_ba]
  rfl

/-- The reference's second result is `outB` of its arguments. -/
theorem ref_b (x0 x1 : (⟨S50000x512, .f32⟩ : BufTy).Contents (Elt Ideal)) (x3 : (⟨S2x150000, .i32⟩ : BufTy).Contents (Elt Ideal))
    (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) :
    val_main_v72 (F := Ideal) x0 x1 x3 x9 x10 x11 x12 = outB x0 x1 x3 x9 x10 x11 x12 := by
  funext i
  rw [mlp_ab]
  rfl

end Cert.ReferenceIdeal.RefValue

end
-- ==== Proof.KernelValue.lean ====
/-
  The idealized kernel's two result arrays as functions of the arguments. The last segment boundary's contents at
  the first result are what region 0 left (no later host operation and no array of region 1 touches it); at the
  second result, what region 1 left. Region 0 found: the two aggregated activation arrays (the host's gather and
  scatter-add chains, which are the reference's own, never opened here), the weight matrices narrowed to bf16 (the
  identity on the extended reals) and the bias vectors recast as one-row matrices. Region 1 found the third
  aggregated array, which region 0 does not touch, and its own weights and biases. So each result is, row by row,
  the perceptrons of the aggregated rows: the same functions the reference's results are.
-/
import proofs.«160253_j81552839016473_2_alg».proof.Proof.Gen.KernelIdeal.Frame
import proofs.«160253_j81552839016473_2_alg».proof.Proof.Gen.ReferenceIdeal.Read
import proofs.«160253_j81552839016473_2_alg».proof.Proof.Region0
import proofs.«160253_j81552839016473_2_alg».proof.Proof.Region1
import proofs.«160253_j81552839016473_2_alg».proof.Proof.RefValue
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ) (ρ : Dev nD → PrngReg)

/-! ## Where the two results come from -/

/-- The first result at the end is what region 0 left in it. -/
theorem out_a (c : Dev nD) : W4 m ρ c (Proc.devRef .tc main_v53) = (dat0 (V1 m ρ) c).arrAt 10 cfg0.N :=
  calc W4 m ρ c (Proc.devRef .tc main_v53)
    _ = W3 m ρ c (Proc.devRef .tc main_v53) := W4_of_ne m ρ c main_v53 (by decide)
    _ = W2 m ρ c (Proc.devRef .tc main_v53) := StableHlo.after_of_forall_not_mem (b := Proc.devRef .tc main_v53) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 10 cfg0.N := W2_arr m ρ c 10

/-- The second result at the end is what region 1 left in it. -/
theorem out_b (c : Dev nD) : W4 m ρ c (Proc.devRef .tc main_v58) = (dat1 (V3 m ρ) c).arrAt 5 cfg1.N :=
  W4_arr m ρ c 5

/-! ## What region 0 found -/

/-- The activations aggregated along the first edge set: the reference's own chain of host operations. -/
theorem found_v14 (c : Dev nD) : (V1 m ρ c main_v14 : S50000x512.Idx → EReal)
    = Cert.ReferenceIdeal.Read.val_main_v14 (F := Ideal) (m ((c.tc : Thread nD τ).loc main_arg0)) (m ((c.tc : Thread nD τ).loc main_arg2)) := by
  dsimp only [V1, W1, hostOps0]
  after_results_simp
  rfl

/-- The activations aggregated along the third edge set. -/
theorem found_v29 (c : Dev nD) : (V1 m ρ c main_v29 : S50000x512.Idx → EReal)
    = Cert.ReferenceIdeal.Read.val_main_v38 (F := Ideal) (m ((c.tc : Thread nD τ).loc main_arg0)) (m ((c.tc : Thread nD τ).loc main_arg1)) (m ((c.tc : Thread nD τ).loc main_arg4)) := by
  dsimp only [V1, W1, hostOps0]
  after_results_simp
  rfl

/-- A weight matrix narrowed to bf16 is the matrix. -/
theorem found_v45 (c : Dev nD) (j k : Fin 512) : (V1 m ρ c main_v45 : S512x512.Idx → EReal) (ix2 j k)
    = (m ((c.tc : Thread nD τ).loc main_arg5) : S512x512.Idx → EReal) (ix2 j k) := by
  have e : @Eq (S512x512.Idx → EReal) (V1 m ρ c main_v45) (truncf .bf16 (m ((c.tc : Thread nD τ).loc main_arg5) : FVec Ideal S512x512 .f32) bitsLt_bf16_f32 : FVec Ideal S512x512 .bf16) := by
    dsimp only [V1, W1, hostOps0]
    after_results_simp
  rw [e]
  rfl

/-- A weight matrix narrowed to bf16 is the matrix. -/
theorem found_v47 (c : Dev nD) (j k : Fin 512) : (V1 m ρ c main_v47 : S512x512.Idx → EReal) (ix2 j k)
    = (m ((c.tc : Thread nD τ).loc main_arg7) : S512x512.Idx → EReal) (ix2 j k) := by
  have e : @Eq (S512x512.Idx → EReal) (V1 m ρ c main_v47) (truncf .bf16 (m ((c.tc : Thread nD τ).loc main_arg7) : FVec Ideal S512x512 .f32) bitsLt_bf16_f32 : FVec Ideal S512x512 .bf16) := by
    dsimp only [V1, W1, hostOps0]
    after_results_simp
  rw [e]
  rfl

/-- A weight matrix narrowed to bf16 is the matrix. -/
theorem found_v49 (c : Dev nD) (j k : Fin 512) : (V1 m ρ c main_v49 : S512x512.Idx → EReal) (ix2 j k)
    = (m ((c.tc : Thread nD τ).loc main_arg13) : S512x512.Idx → EReal) (ix2 j k) := by
  have e : @Eq (S512x512.Idx → EReal) (V1 m ρ c main_v49) (truncf .bf16 (m ((c.tc : Thread nD τ).loc main_arg13) : FVec Ideal S512x512 .f32) bitsLt_bf16_f32 : FVec Ideal S512x512 .bf16) := by
    dsimp only [V1, W1, hostOps0]
    after_results_simp
  rw [e]
  rfl

/-- A weight matrix narrowed to bf16 is the matrix. -/
theorem found_v51 (c : Dev nD) (j k : Fin 512) : (V1 m ρ c main_v51 : S512x512.Idx → EReal) (ix2 j k)
    = (m ((c.tc : Thread nD τ).loc main_arg15) : S512x512.Idx → EReal) (ix2 j k) := by
  have e : @Eq (S512x512.Idx → EReal) (V1 m ρ c main_v51) (truncf .bf16 (m ((c.tc : Thread nD τ).loc main_arg15) : FVec Ideal S512x512 .f32) bitsLt_bf16_f32 : FVec Ideal S512x512 .bf16) := by
    dsimp only [V1, W1, hostOps0]
    after_results_simp
  rw [e]
  rfl

/-- A bias vector recast as a one-row matrix reads the vector at the column. -/
theorem found_v46 (c : Dev nD) (k : Fin 512) : (V1 m ρ c main_v46 : S1x512.Idx → EReal) (ix2 0 k)
    = (m ((c.tc : Thread nD τ).loc main_arg6) : S512.Idx → EReal) (ix1 k) := by
  have e : (V1 m ρ c main_v46 : S1x512.Idx → EReal) = shapeCast S1x512 (m ((c.tc : Thread nD τ).loc main_arg6) : S512.Idx → EReal) shapeCasts_S512_S1x512 := by
    dsimp only [V1, W1, hostOps0]
    after_results_simp
    rfl
  rw [e]
  exact shapeCast_a_1a_apply _ _ 0 k

/-- A bias vector recast as a one-row matrix reads the vector at the column. -/
theorem found_v48 (c : Dev nD) (k : Fin 512) : (V1 m ρ c main_v48 : S1x512.Idx → EReal) (ix2 0 k)
    = (m ((c.tc : Thread nD τ).loc main_arg8) : S512.Idx → EReal) (ix1 k) := by
  have e : (V1 m ρ c main_v48 : S1x512.Idx → EReal) = shapeCast S1x512 (m ((c.tc : Thread nD τ).loc main_arg8) : S512.Idx → EReal) shapeCasts_S512_S1x512 := by
    dsimp only [V1, W1, hostOps0]
    after_results_simp
    rfl
  rw [e]
  exact shapeCast_a_1a_apply _ _ 0 k

/-- A bias vector recast as a one-row matrix reads the vector at the column. -/
theorem found_v50 (c : Dev nD) (k : Fin 512) : (V1 m ρ c main_v50 : S1x512.Idx → EReal) (ix2 0 k)
    = (m ((c.tc : Thread nD τ).loc main_arg14) : S512.Idx → EReal) (ix1 k) := by
  have e : (V1 m ρ c main_v50 : S1x512.Idx → EReal) = shapeCast S1x512 (m ((c.tc : Thread nD τ).loc main_arg14) : S512.Idx → EReal) shapeCasts_S512_S1x512 := by
    dsimp only [V1, W1, hostOps0]
    after_results_simp
    rfl
  rw [e]
  exact shapeCast_a_1a_apply _ _ 0 k

/-- A bias vector recast as a one-row matrix reads the vector at the column. -/
theorem found_v52 (c : Dev nD) (k : Fin 512) : (V1 m ρ c main_v52 : S1x512.Idx → EReal) (ix2 0 k)
    = (m ((c.tc : Thread nD τ).loc main_arg16) : S512.Idx → EReal) (ix1 k) := by
  have e : (V1 m ρ c main_v52 : S1x512.Idx → EReal) = shapeCast S1x512 (m ((c.tc : Thread nD τ).loc main_arg16) : S512.Idx → EReal) shapeCasts_S512_S1x512 := by
    dsimp only [V1, W1, hostOps0]
    after_results_simp
    rfl
  rw [e]
  exact shapeCast_a_1a_apply _ _ 0 k

/-! ## What region 1 found -/

/-- The activations aggregated along the second edge set: written by the first stretch of host operations, touched by neither
    region 0 nor the second stretch. -/
theorem found_v44 (c : Dev nD) : (V3 m ρ c main_v44 : S50000x512.Idx → EReal)
    = Cert.ReferenceIdeal.Read.val_main_v63 (F := Ideal) (m ((c.tc : Thread nD τ).loc main_arg0)) (m ((c.tc : Thread nD τ).loc main_arg1)) (m ((c.tc : Thread nD τ).loc main_arg3)) := by
  have e1 : W3 m ρ c (Proc.devRef .tc main_v44) = W2 m ρ c (Proc.devRef .tc main_v44) :=
    StableHlo.after_of_forall_not_mem (b := Proc.devRef .tc main_v44) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v44) = W1 m ρ c (Proc.devRef .tc main_v44) := W2_of_ne m ρ c main_v44 (by decide)
  show W3 m ρ c (Proc.devRef .tc main_v44) = _
  rw [e1, e2]
  dsimp only [W1, hostOps0]
  after_results_simp
  rfl

/-- A weight matrix narrowed to bf16 is the matrix. -/
theorem found_v54 (c : Dev nD) (j k : Fin 512) : (V3 m ρ c main_v54 : S512x512.Idx → EReal) (ix2 j k)
    = (m ((c.tc : Thread nD τ).loc main_arg9) : S512x512.Idx → EReal) (ix2 j k) := by
  have e : @Eq (S512x512.Idx → EReal) (V3 m ρ c main_v54) (truncf .bf16 (W2 m ρ c (Proc.devRef .tc main_arg9) : FVec Ideal S512x512 .f32) bitsLt_bf16_f32 : FVec Ideal S512x512 .bf16) := by
    dsimp only [V3, W3, hostOps1]
    after_results
  have ea : W2 m ρ c (Proc.devRef .tc main_arg9) = m ((c.tc : Thread nD τ).loc main_arg9) :=
    (W2_of_ne m ρ c main_arg9 (by decide)).trans (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e, ea]
  rfl

/-- A weight matrix narrowed to bf16 is the matrix. -/
theorem found_v56 (c : Dev nD) (j k : Fin 512) : (V3 m ρ c main_v56 : S512x512.Idx → EReal) (ix2 j k)
    = (m ((c.tc : Thread nD τ).loc main_arg11) : S512x512.Idx → EReal) (ix2 j k) := by
  have e : @Eq (S512x512.Idx → EReal) (V3 m ρ c main_v56) (truncf .bf16 (W2 m ρ c (Proc.devRef .tc main_arg11) : FVec Ideal S512x512 .f32) bitsLt_bf16_f32 : FVec Ideal S512x512 .bf16) := by
    dsimp only [V3, W3, hostOps1]
    after_results
  have ea : W2 m ρ c (Proc.devRef .tc main_arg11) = m ((c.tc : Thread nD τ).loc main_arg11) :=
    (W2_of_ne m ρ c main_arg11 (by decide)).trans (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e, ea]
  rfl

/-- A bias vector recast as a one-row matrix reads the vector at the column. -/
theorem found_v55 (c : Dev nD) (k : Fin 512) : (V3 m ρ c main_v55 : S1x512.Idx → EReal) (ix2 0 k)
    = (m ((c.tc : Thread nD τ).loc main_arg10) : S512.Idx → EReal) (ix1 k) := by
  have e : (V3 m ρ c main_v55 : S1x512.Idx → EReal) = shapeCast S1x512 (W2 m ρ c (Proc.devRef .tc main_arg10) : S512.Idx → EReal) shapeCasts_S512_S1x512 := by
    dsimp only [V3, W3, hostOps1]
    after_results
    rfl
  have ea : W2 m ρ c (Proc.devRef .tc main_arg10) = m ((c.tc : Thread nD τ).loc main_arg10) :=
    (W2_of_ne m ρ c main_arg10 (by decide)).trans (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e, ea]
  exact shapeCast_a_1a_apply _ _ 0 k

/-- A bias vector recast as a one-row matrix reads the vector at the column. -/
theorem found_v57 (c : Dev nD) (k : Fin 512) : (V3 m ρ c main_v57 : S1x512.Idx → EReal) (ix2 0 k)
    = (m ((c.tc : Thread nD τ).loc main_arg12) : S512.Idx → EReal) (ix1 k) := by
  have e : (V3 m ρ c main_v57 : S1x512.Idx → EReal) = shapeCast S1x512 (W2 m ρ c (Proc.devRef .tc main_arg12) : S512.Idx → EReal) shapeCasts_S512_S1x512 := by
    dsimp only [V3, W3, hostOps1]
    after_results
    rfl
  have ea : W2 m ρ c (Proc.devRef .tc main_arg12) = m ((c.tc : Thread nD τ).loc main_arg12) :=
    (W2_of_ne m ρ c main_arg12 (by decide)).trans (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e, ea]
  exact shapeCast_a_1a_apply _ _ 0 k

/-! ## The two results -/

/-- THE FIRST RESULT after the run, as a function of the arguments. -/
theorem value_a (c : Dev nD) : (W4 m ρ c (Proc.devRef .tc main_v53) : S50000x512.Idx → EReal)
    = Cert.ReferenceIdeal.RefValue.outA (m ((c.tc : Thread nD τ).loc main_arg0)) (m ((c.tc : Thread nD τ).loc main_arg1)) (m ((c.tc : Thread nD τ).loc main_arg2)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg13)) (m ((c.tc : Thread nD τ).loc main_arg14)) (m ((c.tc : Thread nD τ).loc main_arg15)) (m ((c.tc : Thread nD τ).loc main_arg16)) := by
  refine (out_a m ρ c).trans ((Region0.final (V1 m ρ) c).trans (funext fun i => ?_))
  unfold Region0.G Cert.ReferenceIdeal.RefValue.outA
  refine congrArg₂ (· + ·)
    (mlpRow_congr (fun j => congrFun (found_v14 m ρ c) _) (fun j k => found_v45 m ρ c j k) (fun k => found_v46 m ρ c k) (fun k q => found_v47 m ρ c k q) (fun q => found_v48 m ρ c q) rfl)
    (mlpRow_congr (fun j => congrFun (found_v29 m ρ c) _) (fun j k => found_v49 m ρ c j k) (fun k => found_v50 m ρ c k) (fun k q => found_v51 m ρ c k q) (fun q => found_v52 m ρ c q) rfl)

/-- THE SECOND RESULT after the run, as a function of the arguments. -/
theorem value_b (c : Dev nD) : (W4 m ρ c (Proc.devRef .tc main_v58) : S50000x512.Idx → EReal)
    = Cert.ReferenceIdeal.RefValue.outB (m ((c.tc : Thread nD τ).loc main_arg0)) (m ((c.tc : Thread nD τ).loc main_arg1)) (m ((c.tc : Thread nD τ).loc main_arg3))
        (m ((c.tc : Thread nD τ).loc main_arg9)) (m ((c.tc : Thread nD τ).loc main_arg10)) (m ((c.tc : Thread nD τ).loc main_arg11)) (m ((c.tc : Thread nD τ).loc main_arg12)) := by
  refine (out_b m ρ c).trans ((Region1.final (V3 m ρ) c).trans (funext fun i => ?_))
  unfold Region1.G Cert.ReferenceIdeal.RefValue.outB
  exact mlpRow_congr (fun j => congrFun (found_v44 m ρ c) _) (fun j k => found_v54 m ρ c j k) (fun k => found_v55 m ρ c k) (fun k q => found_v56 m ρ c k q) (fun q => found_v57 m ρ c q) rfl

end Cert.KernelIdeal.Hand

end
-- ==== Proof.lean ====
/-
  The proof of the claim. The kernel program computes, on the host, three aggregated activation arrays
  (x_dst + the scatter-add over the incoming edges of the gathered source rows), and then runs two kernels:
  one adds the two-layer perceptrons of the two arrays aggregated into node type a, block of 1000 rows by block,
  the other applies the perceptron of the array aggregated into node type b, 2000 rows at a time. The reference
  computes the same three aggregations by the same host operations and applies the three perceptrons to whole
  arrays. Over the extended reals a narrowing to bf16 is the identity, a matmul into a zero accumulator and a
  `dot_general` are the same sum of products over the contracted axis, and a row of a perceptron's output depends
  on the same row of its input only; so both programs' results are, row by row, the perceptrons of the aggregated
  rows (`RefValue.outA`, `RefValue.outB`), the aggregations entering as the same opaque terms on both sides. No
  law used needs finiteness: the precondition is not opened.

  The three frames are the generated ones (the reference's is its generated run with the results dropped); the
  idealization rewrote nothing, so `preserves` is trivial.
-/
import proofs.«160253_j81552839016473_2_alg».proof.Defs
import proofs.«160253_j81552839016473_2_alg».proof.Proof.Gen.Kernel
import proofs.«160253_j81552839016473_2_alg».proof.Proof.Gen.Kernel.Skeleton
import proofs.«160253_j81552839016473_2_alg».proof.Proof.Gen.Kernel.Launch
import proofs.«160253_j81552839016473_2_alg».proof.Proof.Gen.Kernel.Points
import proofs.«160253_j81552839016473_2_alg».proof.Proof.Gen.Kernel.Frame
import proofs.«160253_j81552839016473_2_alg».proof.Proof.Gen.KernelIdeal
import proofs.«160253_j81552839016473_2_alg».proof.Proof.Gen.KernelIdeal.Skeleton
import proofs.«160253_j81552839016473_2_alg».proof.Proof.Gen.KernelIdeal.Launch
import proofs.«160253_j81552839016473_2_alg».proof.Proof.Gen.KernelIdeal.Points
import proofs.«160253_j81552839016473_2_alg».proof.Proof.Gen.KernelIdeal.Frame
import proofs.«160253_j81552839016473_2_alg».proof.Proof.Gen.ReferenceIdeal
import proofs.«160253_j81552839016473_2_alg».proof.Proof.Gen.Pre_finite_inputs
import proofs.«160253_j81552839016473_2_alg».proof.Proof.Gen.ReferenceIdeal.Run
import proofs.«160253_j81552839016473_2_alg».proof.Proof.Gen.ReferenceIdeal.Read
import proofs.«160253_j81552839016473_2_alg».proof.Proof.KernelRun
import proofs.«160253_j81552839016473_2_alg».proof.Proof.KernelValue
import proofs.«160253_j81552839016473_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result at the same function of the arguments: the kernel's by its two regions read as
    whole-array functions of what they find, the reference's by its operations read at an index. -/
theorem algebraic : Cert.algebraic_KernelIdeal_ReferenceIdeal := by
  intro m ρ m' ρ' _ hagree
  refine ⟨fun c => Cert.ReferenceIdeal.RefValue.outA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.RefValue.outB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Hand.run_named m ρ)
    exact ⟨(h c Cert.KernelIdeal.main_v53 (by decide)).trans (Cert.KernelIdeal.Hand.value_a m ρ c),
      (h c Cert.KernelIdeal.main_v58 (by decide)).trans (Cert.KernelIdeal.Hand.value_b m ρ c),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c),
      (h c Cert.KernelIdeal.main_arg3 (by decide)).trans (Cert.KernelIdeal.Gen.W4_main_arg3 m ρ c),
      (h c Cert.KernelIdeal.main_arg4 (by decide)).trans (Cert.KernelIdeal.Gen.W4_main_arg4 m ρ c),
      (h c Cert.KernelIdeal.main_arg5 (by decide)).trans (Cert.KernelIdeal.Gen.W4_main_arg5 m ρ c),
      (h c Cert.KernelIdeal.main_arg6 (by decide)).trans (Cert.KernelIdeal.Gen.W4_main_arg6 m ρ c),
      (h c Cert.KernelIdeal.main_arg7 (by decide)).trans (Cert.KernelIdeal.Gen.W4_main_arg7 m ρ c),
      (h c Cert.KernelIdeal.main_arg8 (by decide)).trans (Cert.KernelIdeal.Gen.W4_main_arg8 m ρ c),
      (h c Cert.KernelIdeal.main_arg9 (by decide)).trans (Cert.KernelIdeal.Gen.W4_main_arg9 m ρ c),
      (h c Cert.KernelIdeal.main_arg10 (by decide)).trans (Cert.KernelIdeal.Gen.W4_main_arg10 m ρ c),
      (h c Cert.KernelIdeal.main_arg11 (by decide)).trans (Cert.KernelIdeal.Gen.W4_main_arg11 m ρ c),
      (h c Cert.KernelIdeal.main_arg12 (by decide)).trans (Cert.KernelIdeal.Gen.W4_main_arg12 m ρ c),
      (h c Cert.KernelIdeal.main_arg13 (by decide)).trans (Cert.KernelIdeal.Gen.W4_main_arg13 m ρ c),
      (h c Cert.KernelIdeal.main_arg14 (by decide)).trans (Cert.KernelIdeal.Gen.W4_main_arg14 m ρ c),
      (h c Cert.KernelIdeal.main_arg15 (by decide)).trans (Cert.KernelIdeal.Gen.W4_main_arg15 m ρ c),
      (h c Cert.KernelIdeal.main_arg16 (by decide)).trans (Cert.KernelIdeal.Gen.W4_main_arg16 m ρ c)⟩
  · refine (θ_run Cert.ReferenceIdeal.defs _ _).mono (fun r h c => ?_) (Cert.ReferenceIdeal.Value.run (F := Ideal) m' ρ')
    obtain ⟨h48, h72, hargs⟩ := h c
    obtain ⟨a0, a1, a2, a3, a4, a5, a6, a7, a8, a9, a10, a11, a12, a13, a14, a15, a16⟩ := hagree c
    refine ⟨?_, ?_, hargs⟩
    · refine h48.trans ((Cert.ReferenceIdeal.Read.val_main_v48_eq _ _ _ _ _ _ _ _ _ _ _ _).trans ((Cert.ReferenceIdeal.RefValue.ref_a _ _ _ _ _ _ _ _ _ _ _ _).trans ?_))
      rw [a0, a1, a2, a4, a5, a6, a7, a8, a13, a14, a15, a16]
    · refine h72.trans ((Cert.ReferenceIdeal.Read.val_main_v72_eq _ _ _ _ _ _ _).trans ((Cert.ReferenceIdeal.RefValue.ref_b _ _ _ _ _ _ _).trans ?_))
      rw [a0, a1, a3, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
